-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v45)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v45) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v52) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S64x64 : Shape := ⟨2, ![64, 64]⟩
abbrev S1000000 : Shape := ⟨1, ![1000000]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_

variable [Facts]

def fn {F : FTy → Type} [FloatOps F] (main_arg0 : FVec F S100000x64 .f32) (main_arg1 : FVec F S64x64 .f32) (main_arg2 : IVec S1000000 32) (main_arg3 : IVec S1000000 32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg1
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  main_v8
-- ==== Kernel.lean ====
abbrev S100000x64 : Shape := ⟨2, ![100000, 64]⟩
abbrev S64x64 : Shape := ⟨2, ![64, 64]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S10000x64 : Shape := ⟨2, ![10000, 64]⟩
abbrev S10000x1 : Shape := ⟨2, ![10000, 1]⟩
abbrev S1000000x64 : Shape := ⟨2, ![1000000, 64]⟩

abbrev nBuf : Space → Nat
  | .hbm => 69
  | .vmem => 19
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S1000000, .i32⟩
  | .hbm, ⟨3, _⟩ => ⟨S1000000, .i32⟩
  | .hbm, ⟨4, _⟩ => ⟨S_, .f32⟩
  | .hbm, ⟨5, _⟩ => ⟨S1000000, .f32⟩
  | .hbm, ⟨6, _⟩ => ⟨S_, .f32⟩
  | .hbm, ⟨7, _⟩ => ⟨S100000, .f32⟩
  | .hbm, ⟨8, _⟩ => ⟨S1000000x1, .i32⟩
  | .hbm, ⟨9, _⟩ => ⟨S100000, .f32⟩
  | .hbm, ⟨10, _⟩ => ⟨S_, .f32⟩
  | .hbm, ⟨11, _⟩ => ⟨S100000, .f32⟩
  | .hbm, ⟨12, _⟩ => ⟨S1000000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S100000, .i1⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000, .f32⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x1, .f32⟩
  | .hbm, ⟨38, _⟩ => ⟨S100000, .f32⟩
  | .hbm, ⟨39, _⟩ => ⟨S100000x1, .f32⟩
  | .hbm, ⟨40, _⟩ => ⟨S100000x64, .f32⟩
  | .hbm, ⟨41, _⟩ => ⟨S_, .i32⟩
  | .hbm, ⟨42, _⟩ => ⟨S1000000, .i32⟩
  | .hbm, ⟨43, _⟩ => ⟨S1000000, .i1⟩
  | .hbm, ⟨44, _⟩ => ⟨S_, .i32⟩
  | .hbm, ⟨45, _⟩ => ⟨S1000000, .i32⟩
  | .hbm, ⟨46, _⟩ => ⟨S1000000, .i32⟩
  | .hbm, ⟨47, _⟩ => ⟨S1000000, .i32⟩
  | .hbm, ⟨48, _⟩ => ⟨S1000000x1, .i32⟩
  | .hbm, ⟨49, _⟩ => ⟨S1000000x64, .f32⟩
  | .hbm, ⟨50, _⟩ => ⟨S_, .f32⟩
  | .hbm, ⟨51, _⟩ => ⟨S100000x64, .f32⟩
  | .hbm, ⟨52, _⟩ => ⟨S1000000x1, .i32⟩
  | .hbm, ⟨53, _⟩ => ⟨S100000x64, .f32⟩
  | .hbm, ⟨54, _⟩ => ⟨S100000x64, .f32⟩
  | .hbm, ⟨55, _⟩ => ⟨S_, .i32⟩
  | .hbm, ⟨56, _⟩ => ⟨S1000000, .i32⟩
  | .hbm, ⟨57, _⟩ => ⟨S1000000, .i1⟩
  | .hbm, ⟨58, _⟩ => ⟨S_, .i32⟩
  | .hbm, ⟨59, _⟩ => ⟨S1000000, .i32⟩
  | .hbm, ⟨60, _⟩ => ⟨S1000000, .i32⟩
  | .hbm, ⟨61, _⟩ => ⟨S1000000, .i32⟩
  | .hbm, ⟨62, _⟩ => ⟨S1000000x1, .i32⟩
  | .hbm, ⟨63, _⟩ => ⟨S1000000x64, .f32⟩
  | .hbm, ⟨64, _⟩ => ⟨S_, .f32⟩
  | .hbm, ⟨65, _⟩ => ⟨S100000x64, .f32⟩
  | .hbm, ⟨66, _⟩ => ⟨S1000000x1, .i32⟩
  | .hbm, ⟨67, _⟩ => ⟨S100000x64, .f32⟩
  | .hbm, ⟨68, _⟩ => ⟨S100000x64, .f32⟩
  | .local _ .vmem, ⟨0, _⟩ => ⟨S10000x64, .f32⟩
  | .local _ .vmem, ⟨1, _⟩ => ⟨S10000x64, .f32⟩
  | .local _ .vmem, ⟨2, _⟩ => ⟨S10000x1, .f32⟩
  | .local _ .vmem, ⟨3, _⟩ => ⟨S10000x1, .f32⟩
  | .local _ .vmem, ⟨4, _⟩ => ⟨S10000x64, .f32⟩
  | .local _ .vmem, ⟨5, _⟩ => ⟨S10000x64, .f32⟩
  | .local _ .vmem, ⟨6, _⟩ => ⟨S10000x64, .f32⟩
  | .local _ .vmem, ⟨7, _⟩ => ⟨S10000x64, .f32⟩
  | .local _ .vmem, ⟨8, _⟩ => ⟨S10000x1, .f32⟩
  | .local _ .vmem, ⟨9, _⟩ => ⟨S10000x1, .f32⟩
  | .local _ .vmem, ⟨10, _⟩ => ⟨S10000x64, .f32⟩
  | .local _ .vmem, ⟨11, _⟩ => ⟨S10000x64, .f32⟩
  | .local _ .vmem, ⟨12, _⟩ => ⟨S10000x64, .f32⟩
  | .local _ .vmem, ⟨13, _⟩ => ⟨S10000x64, .f32⟩
  | .local _ .vmem, ⟨14, _⟩ => ⟨S10000x1, .f32⟩
  | .local _ .vmem, ⟨15, _⟩ => ⟨S10000x1, .f32⟩
  | .local _ .vmem, ⟨16, _⟩ => ⟨S64x64, .f32⟩
  | .local _ .vmem, ⟨17, _⟩ => ⟨S10000x64, .f32⟩
  | .local _ .vmem, ⟨18, _⟩ => ⟨S10000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 19 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | _ => false

abbrev sig : RefSig :=
  ofTc nBuf bufTy 0 19 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_call0_v0 : Ref sig .tc := ⟨.hbm, 22, rfl⟩
abbrev main_call0_v1 : Ref sig .tc := ⟨.hbm, 23, rfl⟩
abbrev main_v12 : Ref sig .tc := ⟨.hbm, 24, rfl⟩
abbrev main_cst_5 : Ref sig .tc := ⟨.hbm, 25, rfl⟩
abbrev main_v13 : Ref sig .tc := ⟨.hbm, 26, rfl⟩
abbrev main_v14 : Ref sig .tc := ⟨.hbm, 27, rfl⟩
abbrev main_cst_6 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_7 : Ref sig .tc := ⟨.hbm, 32, rfl⟩
abbrev main_call1_v0 : Ref sig .tc := ⟨.hbm, 33, rfl⟩
abbrev main_call1_v1 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_c : Ref sig .tc := ⟨.hbm, 41, rfl⟩
abbrev main_v24 : Ref sig .tc := ⟨.hbm, 42, rfl⟩
abbrev main_v25 : Ref sig .tc := ⟨.hbm, 43, rfl⟩
abbrev main_c_8 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_9 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_c_10 : Ref sig .tc := ⟨.hbm, 55, rfl⟩
abbrev main_v35 : Ref sig .tc := ⟨.hbm, 56, rfl⟩
abbrev main_v36 : Ref sig .tc := ⟨.hbm, 57, rfl⟩
abbrev main_c_11 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_v40 : Ref sig .tc := ⟨.hbm, 62, rfl⟩
abbrev main_v41 : Ref sig .tc := ⟨.hbm, 63, rfl⟩
abbrev main_cst_12 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩
abbrev main_v45 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg3_0 : Ref sig .tc := ⟨.vmem, 17, rfl⟩
abbrev cc2_stg3_1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem3_0 : DmaSem sig := 17
abbrev cc2_sem3_1 : DmaSem sig := 18

abbrev nD : Nat := 1
abbrev τ : Topo := Topo.v7x

variable {F : FTy → Type} [FloatOps F]

abbrev grid0 : Pipeline.Grid := ⟨1, ![10], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![10], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S10000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S10000x1 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S10000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![10], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S10000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S10000x1 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S10000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  shapeCasts_S100000_S100000x1 : S100000.ShapeCasts S100000x1
  inb_S10000x64_S10000x64_0_0 : ∀ a, (![0, 0] : Fin 2 → Nat) a + S10000x64.size a ≤ S10000x64.size a
  h_S10000x64 : 0 < S10000x64.numel
  inb_S10000x1_S10000x1_0_0 : ∀ a, (![0, 0] : Fin 2 → Nat) a + S10000x1.size a ≤ S10000x1.size a
  h_S10000x1 : 0 < S10000x1.numel
  shapeCasts_S10000x1_S10000x1 : S10000x1.ShapeCasts S10000x1
  broadcasts_S10000x1_S10000x64 : S10000x1.Broadcasts S10000x64
  bcast_S_S100000x64 : S_.BroadcastsInDim S100000x64 (![] : Fin 0 → Fin S100000x64.rank)
  shapeCasts_S10000x64_S10000x64 : S10000x64.ShapeCasts S10000x64
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S10000x64_S64x64_S10000x64_1_0_0_1_n_n_wf : DotDims.WF S10000x64 S64x64 S10000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x64.size a ≤ S100000x64.size a
  hwx0_0 : ∀ i : grid0.Coords, EltTy.bits .f32 = 32 ∨ (Rect.block (s := S100000x64) S10000x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x1.size a ≤ S100000x1.size a
  hwx0_1 : ∀ i : grid0.Coords, EltTy.bits .f32 = 32 ∨ (Rect.block (s := S100000x1) S10000x1.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x64.size a ≤ S100000x64.size a
  hwx0_2 : ∀ i : grid0.Coords, EltTy.bits .f32 = 32 ∨ (Rect.block (s := S100000x64) S10000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S10000x64.size a ≤ S100000x64.size a
  hwx1_0 : ∀ i : grid1.Coords, EltTy.bits .f32 = 32 ∨ (Rect.block (s := S100000x64) S10000x64.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S10000x1.size a ≤ S100000x1.size a
  hwx1_1 : ∀ i : grid1.Coords, EltTy.bits .f32 = 32 ∨ (Rect.block (s := S100000x1) S10000x1.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S10000x64.size a ≤ S100000x64.size a
  hwx1_2 : ∀ i : grid1.Coords, EltTy.bits .f32 = 32 ∨ (Rect.block (s := S100000x64) S10000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S10000x64.size a ≤ S100000x64.size a
  hwx2_0 : ∀ i : grid2.Coords, EltTy.bits .f32 = 32 ∨ (Rect.block (s := S100000x64) S10000x64.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S10000x1.size a ≤ S100000x1.size a
  hwx2_1 : ∀ i : grid2.Coords, EltTy.bits .f32 = 32 ∨ (Rect.block (s := S100000x1) S10000x1.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S10000x64.size a ≤ S100000x64.size a
  hwx2_3 : ∀ i : grid2.Coords, EltTy.bits .f32 = 32 ∨ (Rect.block (s := S100000x64) S10000x64.size (cc2_transform_3 i) (hinb2_3 i)).WholeWords (EltTy.packing .f32)

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S10000x64_S64x64_S10000x64_1_0_0_1_n_n : DotDims S10000x64 S64x64 S10000x64 where
  lhsContracting := [1]
  rhsContracting := [0]
  lhsNonContracting := [0]
  rhsNonContracting := [1]
  lhsBatch := []
  rhsBatch := []
  wf := dot_S10000x64_S64x64_S10000x64_1_0_0_1_n_n_wf

abbrev win0_0 : Pipeline.Window sig grid0 :=
  Pipeline.Window.ofSpec (Memref.whole main_arg0) S10000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S10000x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v23) S10000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v33) S10000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v22) S10000x1.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v34) S10000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v44) S10000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v20) S10000x1.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg1) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v45) S10000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S100000x64 : Shape := ⟨2, ![100000, 64]⟩
abbrev S64x64 : Shape := ⟨2, ![64, 64]⟩
abbrev S1000000 : Shape := ⟨1, ![1000000]⟩
abbrev S_ : Shape := ⟨0, ![]⟩
abbrev S100000 : Shape := ⟨1, ![100000]⟩
abbrev S1000000x1 : Shape := ⟨2, ![1000000, 1]⟩
abbrev S100000x1 : Shape := ⟨2, ![100000, 1]⟩
abbrev S1000000x64 : Shape := ⟨2, ![1000000, 64]⟩

abbrev nBuf : Space → Nat
  | .hbm => 78
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S64x64, .f32⟩
  | .hbm, ⟨2, _⟩ => ⟨S1000000, .i32⟩
  | .hbm, ⟨3, _⟩ => ⟨S1000000, .i32⟩
  | .hbm, ⟨4, _⟩ => ⟨S_, .f32⟩
  | .hbm, ⟨5, _⟩ => ⟨S1000000, .f32⟩
  | .hbm, ⟨6, _⟩ => ⟨S_, .f32⟩
  | .hbm, ⟨7, _⟩ => ⟨S100000, .f32⟩
  | .hbm, ⟨8, _⟩ => ⟨S1000000x1, .i32⟩
  | .hbm, ⟨9, _⟩ => ⟨S100000, .f32⟩
  | .hbm, ⟨10, _⟩ => ⟨S_, .f32⟩
  | .hbm, ⟨11, _⟩ => ⟨S100000, .f32⟩
  | .hbm, ⟨12, _⟩ => ⟨S1000000x1, .i32⟩
  | .hbm, ⟨13, _⟩ => ⟨S100000, .f32⟩
  | .hbm, ⟨14, _⟩ => ⟨S_, .f32⟩
  | .hbm, ⟨15, _⟩ => ⟨S100000, .f32⟩
  | .hbm, ⟨16, _⟩ => ⟨S100000, .i1⟩
  | .hbm, ⟨17, _⟩ => ⟨S_, .f32⟩
  | .hbm, ⟨18, _⟩ => ⟨S100000, .f32⟩
  | .hbm, ⟨19, _⟩ => ⟨S100000, .f32⟩
  | .hbm, ⟨20, _⟩ => ⟨S100000, .f32⟩
  | .hbm, ⟨21, _⟩ => ⟨S_, .f32⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S_, .f32⟩
  | .hbm, ⟨26, _⟩ => ⟨S100000, .f32⟩
  | .hbm, ⟨27, _⟩ => ⟨S100000, .i1⟩
  | .hbm, ⟨28, _⟩ => ⟨S_, .f32⟩
  | .hbm, ⟨29, _⟩ => ⟨S100000, .f32⟩
  | .hbm, ⟨30, _⟩ => ⟨S100000, .f32⟩
  | .hbm, ⟨31, _⟩ => ⟨S100000, .f32⟩
  | .hbm, ⟨32, _⟩ => ⟨S_, .f32⟩
  | .hbm, ⟨33, _⟩ => ⟨S_, .f32⟩
  | .hbm, ⟨34, _⟩ => ⟨S100000, .f32⟩
  | .hbm, ⟨35, _⟩ => ⟨S100000, .f32⟩
  | .hbm, ⟨36, _⟩ => ⟨S100000x1, .f32⟩
  | .hbm, ⟨37, _⟩ => ⟨S100000x64, .f32⟩
  | .hbm, ⟨38, _⟩ => ⟨S100000x64, .f32⟩
  | .hbm, ⟨39, _⟩ => ⟨S_, .i32⟩
  | .hbm, ⟨40, _⟩ => ⟨S1000000, .i32⟩
  | .hbm, ⟨41, _⟩ => ⟨S1000000, .i1⟩
  | .hbm, ⟨42, _⟩ => ⟨S_, .i32⟩
  | .hbm, ⟨43, _⟩ => ⟨S1000000, .i32⟩
  | .hbm, ⟨44, _⟩ => ⟨S1000000, .i32⟩
  | .hbm, ⟨45, _⟩ => ⟨S1000000, .i32⟩
  | .hbm, ⟨46, _⟩ => ⟨S1000000x1, .i32⟩
  | .hbm, ⟨47, _⟩ => ⟨S1000000x64, .f32⟩
  | .hbm, ⟨48, _⟩ => ⟨S_, .f32⟩
  | .hbm, ⟨49, _⟩ => ⟨S100000x64, .f32⟩
  | .hbm, ⟨50, _⟩ => ⟨S1000000x1, .i32⟩
  | .hbm, ⟨51, _⟩ => ⟨S100000x64, .f32⟩
  | .hbm, ⟨52, _⟩ => ⟨S100000x1, .f32⟩
  | .hbm, ⟨53, _⟩ => ⟨S100000x64, .f32⟩
  | .hbm, ⟨54, _⟩ => ⟨S100000x64, .f32⟩
  | .hbm, ⟨55, _⟩ => ⟨S100000x1, .f32⟩
  | .hbm, ⟨56, _⟩ => ⟨S100000x64, .f32⟩
  | .hbm, ⟨57, _⟩ => ⟨S100000x64, .f32⟩
  | .hbm, ⟨58, _⟩ => ⟨S_, .i32⟩
  | .hbm, ⟨59, _⟩ => ⟨S1000000, .i32⟩
  | .hbm, ⟨60, _⟩ => ⟨S1000000, .i1⟩
  | .hbm, ⟨61, _⟩ => ⟨S_, .i32⟩
  | .hbm, ⟨62, _⟩ => ⟨S1000000, .i32⟩
  | .hbm, ⟨63, _⟩ => ⟨S1000000, .i32⟩
  | .hbm, ⟨64, _⟩ => ⟨S1000000, .i32⟩
  | .hbm, ⟨65, _⟩ => ⟨S1000000x1, .i32⟩
  | .hbm, ⟨66, _⟩ => ⟨S1000000x64, .f32⟩
  | .hbm, ⟨67, _⟩ => ⟨S_, .f32⟩
  | .hbm, ⟨68, _⟩ => ⟨S100000x64, .f32⟩
  | .hbm, ⟨69, _⟩ => ⟨S1000000x1, .i32⟩
  | .hbm, ⟨70, _⟩ => ⟨S100000x64, .f32⟩
  | .hbm, ⟨71, _⟩ => ⟨S100000x1, .f32⟩
  | .hbm, ⟨72, _⟩ => ⟨S100000x64, .f32⟩
  | .hbm, ⟨73, _⟩ => ⟨S100000x64, .f32⟩
  | .hbm, ⟨74, _⟩ => ⟨S100000x64, .f32⟩
  | .hbm, ⟨75, _⟩ => ⟨S_, .f32⟩
  | .hbm, ⟨76, _⟩ => ⟨S100000x64, .f32⟩
  | .hbm, ⟨77, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_cst_0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst_1 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_cst_3 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_4 : Ref sig .tc := ⟨.hbm, 21, rfl⟩
abbrev main_call0_v0 : Ref sig .tc := ⟨.hbm, 22, rfl⟩
abbrev main_call0_v1 : Ref sig .tc := ⟨.hbm, 23, rfl⟩
abbrev main_v12 : Ref sig .tc := ⟨.hbm, 24, rfl⟩
abbrev main_cst_5 : Ref sig .tc := ⟨.hbm, 25, rfl⟩
abbrev main_v13 : Ref sig .tc := ⟨.hbm, 26, rfl⟩
abbrev main_v14 : Ref sig .tc := ⟨.hbm, 27, rfl⟩
abbrev main_cst_6 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_cst_7 : Ref sig .tc := ⟨.hbm, 32, rfl⟩
abbrev main_call1_v0 : Ref sig .tc := ⟨.hbm, 33, rfl⟩
abbrev main_call1_v1 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_c : Ref sig .tc := ⟨.hbm, 39, rfl⟩
abbrev main_v22 : Ref sig .tc := ⟨.hbm, 40, rfl⟩
abbrev main_v23 : Ref sig .tc := ⟨.hbm, 41, rfl⟩
abbrev main_c_8 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_cst_9 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_10 : Ref sig .tc := ⟨.hbm, 58, rfl⟩
abbrev main_v38 : Ref sig .tc := ⟨.hbm, 59, rfl⟩
abbrev main_v39 : Ref sig .tc := ⟨.hbm, 60, rfl⟩
abbrev main_c_11 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_cst_12 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_call2_cst : Ref sig .tc := ⟨.hbm, 75, rfl⟩
abbrev main_call2_v0 : Ref sig .tc := ⟨.hbm, 76, rfl⟩
abbrev main_v52 : Ref sig .tc := ⟨.hbm, 77, rfl⟩

abbrev nD : Nat := 1
abbrev τ : Topo := Topo.v7x

variable {F : FTy → Type} [FloatOps F]

class Facts₀ : Prop where
  bcast_S_S1000000 : S_.BroadcastsInDim S1000000 (![] : Fin 0 → Fin S1000000.rank)
  bcast_S_S100000 : S_.BroadcastsInDim S100000 (![] : Fin 0 → Fin S100000.rank)
  bcast_S1000000_S1000000x1_0 : S1000000.BroadcastsInDim S1000000x1 (![0] : Fin 1 → Fin S1000000x1.rank)
  bcast_S100000_S100000x1_0 : S100000.BroadcastsInDim S100000x1 (![0] : Fin 1 → Fin S100000x1.rank)
  bcast_S100000x1_S100000x64_0_1 : S100000x1.BroadcastsInDim S100000x64 (![0, 1] : Fin 2 → Fin S100000x64.rank)
  bcast_S_S100000x64 : S_.BroadcastsInDim S100000x64 (![] : Fin 0 → Fin S100000x64.rank)
  scatter_S100000_S1000000x1_S1000000_n_0_0_1_wf : ScatterDims.WF S100000 S1000000x1 S1000000 [] [0] [0] 1
  gather_S100000x64_S1000000x1_S1000000x64_1_0_n_n_0_1_164_wf : GatherDims.WF S100000x64 S1000000x1 S1000000x64 [1] [0] [] [0] [] 1 ![1, 64]
  scatter_S100000x64_S1000000x1_S1000000x64_1_0_0_1_wf : ScatterDims.WF S100000x64 S1000000x1 S1000000x64 [1] [0] [0] 1
  dot_S100000x64_S64x64_S100000x64_1_0_0_1_n_n_wf : DotDims.WF S100000x64 S64x64 S100000x64 [1] [0] [0] [1] [] []

variable [Facts₀]

def scatter_S100000_S1000000x1_S1000000_n_0_0_1 : ScatterDims S100000 S1000000x1 S1000000 where
  updateWindowDims := []
  insertedWindowDims := [0]
  scatterDimsToOperandDims := [0]
  indexVectorDim := 1
  wf := scatter_S100000_S1000000x1_S1000000_n_0_0_1_wf
def gather_S100000x64_S1000000x1_S1000000x64_1_0_n_n_0_1_164 : GatherDims S100000x64 S1000000x1 S1000000x64 where
  offsetDims := [1]
  collapsedSliceDims := [0]
  operandBatchingDims := []
  startIndicesBatchingDims := []
  startIndexMap := [0]
  indexVectorDim := 1
  sliceSizes := ![1, 64]
  wf := gather_S100000x64_S1000000x1_S1000000x64_1_0_n_n_0_1_164_wf
def scatter_S100000x64_S1000000x1_S1000000x64_1_0_0_1 : ScatterDims S100000x64 S1000000x1 S1000000x64 where
  updateWindowDims := [1]
  insertedWindowDims := [0]
  scatterDimsToOperandDims := [0]
  indexVectorDim := 1
  wf := scatter_S100000x64_S1000000x1_S1000000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf

class Facts : Prop extends Facts₀ where

variable [Facts]
-- ==== Proof.Spec.lean ====
/-
  Simplified graph convolution, two hops, as functions on the extended reals.

  A graph on 100000 nodes carries a feature row of 64 numbers per node. One propagation step gathers, for every edge,
  the source node's row and adds it into the destination node's row; before and after a step the rows are scaled by
  per-node factors (the inverse square roots of the out- and in-degrees). After two steps the rows are multiplied by
  a 64 × 64 weight matrix and negative entries are cut to zero.

  This module names only the two operations that are not a propagation step, index by index:
    * `scaleRows h n`   : row `r` of `h` times the node factor `n r`;
    * `projRelu h n w`  : row `r` of `h` times `n r`, then the product with `w`, then the maximum with zero;
  and the one law that joins the two programs: scaling the rows by `a` and then by `b` is scaling them once by the
  product `a · b`. Multiplication of extended reals is associative, whatever is infinite, so the law needs no
  finiteness. The propagation step itself is the same term in both programs and is never opened.
-/
import Idealize.ShloMosaic.PureOps.Ideal
import Idealize.ShloMosaic.Lib.ValueIdx

noncomputable section

namespace Cert.Sgc

open Idealize.ShloMosaic

/-- Node features: 100000 rows of 64. -/
abbrev Feat : Shape := ⟨2, ![100000, 64]⟩
/-- One number per node, as a column. -/
abbrev Col : Shape := ⟨2, ![100000, 1]⟩
/-- One number per node. -/
abbrev Node : Shape := ⟨1, ![100000]⟩
/-- The weight matrix. -/
abbrev Wt : Shape := ⟨2, ![64, 64]⟩

/-- The node whose row a feature index lies in. -/
abbrev nodeOf (i : Feat.Idx) : Node.Idx := fun a => match a with
  | ⟨0, _⟩ => ⟨(i 0).val, (i 0).isLt⟩
/-- The entry of a column that belongs to a feature index's row. -/
abbrev colOf (i : Feat.Idx) : Col.Idx := fun a => match a with
  | ⟨0, _⟩ => ⟨(i 0).val, (i 0).isLt⟩
  | ⟨1, _⟩ => ⟨0, Nat.one_pos⟩
/-- The node of a column entry. -/
abbrev nodeOfCol (j : Col.Idx) : Node.Idx := fun a => match a with
  | ⟨0, _⟩ => ⟨(j 0).val, (j 0).isLt⟩
/-- Entry `k` of the row a feature index lies in. -/
abbrev inRow (i : Feat.Idx) (k : Fin 64) : Feat.Idx := fun a => match a with
  | ⟨0, _⟩ => ⟨(i 0).val, (i 0).isLt⟩
  | ⟨1, _⟩ => ⟨k.val, k.isLt⟩
/-- Entry `k` of the weight column a feature index lies in. -/
abbrev inCol (i : Feat.Idx) (k : Fin 64) : Wt.Idx := fun a => match a with
  | ⟨0, _⟩ => ⟨k.val, k.isLt⟩
  | ⟨1, _⟩ => ⟨(i 1).val, (i 1).isLt⟩

theorem nodeOfCol_colOf (i : Feat.Idx) : nodeOfCol (colOf i) = nodeOf i :=
  funext fun a => match a with | ⟨0, _⟩ => rfl

/-- Every row scaled by its node's factor. -/
def scaleRows (h : Feat.Idx → EReal) (n : Node.Idx → EReal) : Feat.Idx → EReal :=
  fun i => h i * n (nodeOf i)

/-- The same with the factors given as a column. -/
def scaleByCol (h : Feat.Idx → EReal) (n : Col.Idx → EReal) : Feat.Idx → EReal :=
  fun i => h i * n (colOf i)

/-- Node factors laid out as a column. -/
def asCol (n : Node.Idx → EReal) : Col.Idx → EReal := fun j => n (nodeOfCol j)

theorem scaleByCol_asCol (h : Feat.Idx → EReal) (n : Node.Idx → EReal) : scaleByCol h (asCol n) = scaleRows h n :=
  funext fun i => by unfold scaleByCol asCol scaleRows; rw [nodeOfCol_colOf]

/-- Scaling the rows twice is scaling them once by the product of the factors: associativity of the product of
    extended reals, which holds at infinite values too. -/
theorem scaleRows_scaleRows (h : Feat.Idx → EReal) (a b : Node.Idx → EReal) :
    scaleRows (scaleRows h a) b = scaleRows h (fun r => a r * b r) :=
  funext fun i => mul_assoc (h i) (a (nodeOf i)) (b (nodeOf i))

/-- Rows scaled by their node's factor, multiplied by the weight matrix, negative entries cut to zero (the zero
    kept as the float word both programs print). -/
def projRelu (h : Feat.Idx → EReal) (n : Node.Idx → EReal) (w : Wt.Idx → EReal) : Feat.Idx → EReal :=
  fun i => max (∑ k : Fin 64, (h (inRow i k) * n (nodeOf (inRow i k))) * w (inCol i k)) (Ideal.ofBits .f32 0x00000000#32)

/-- The same with the factors given as a column. -/
def projReluByCol (h : Feat.Idx → EReal) (n : Col.Idx → EReal) (w : Wt.Idx → EReal) : Feat.Idx → EReal :=
  fun i => max (∑ k : Fin 64, (h (inRow i k) * n (colOf (inRow i k))) * w (inCol i k)) (Ideal.ofBits .f32 0x00000000#32)

theorem projReluByCol_asCol (h : Feat.Idx → EReal) (n : Node.Idx → EReal) (w : Wt.Idx → EReal) :
    projReluByCol h (asCol n) w = projRelu h n w :=
  funext fun i => by unfold projReluByCol asCol projRelu; simp only [nodeOfCol_colOf]

end Cert.Sgc

end
-- ==== Proof.RefStages.lean ====
/-
  The reference, stage by stage, in the vocabulary of Spec.lean.

  The reference computes the node factors `no` (from the out-degrees) and `ni` (from the in-degrees), then
      r1 = rows of x scaled by no        r2 = propagate r1
      r3 = rows of r2 scaled by ni       r4 = rows of r3 scaled by no       r5 = propagate r4
      r6 = rows of r5 scaled by ni       result = max (r6 · W) 0.
  Each scaling is a product with a node vector broadcast along the rows, read here at an index; the product with `W`
  is the sum over the 64 entries of a row. The propagation step (gather the source rows of the edges, add them into
  the destination rows) is named once and never opened: both programs apply the same step.
  The two consecutive scalings r3, r4 are folded into one by the product of the factors (`Sgc.scaleRows_scaleRows`),
  which is how the kernel computes them.
-/
import proofs.«107755_j35914516529298_1_alg».proof.Proof.RefRead
import proofs.«107755_j35914516529298_1_alg».proof.Proof.Spec

noncomputable section

namespace Cert.ReferenceIdeal.Stages

open Cert.ReferenceIdeal Cert.ReferenceIdeal.Gen Cert.ReferenceIdeal.ReadP Idealize.ShloMosaic

variable (x0 : (⟨S100000x64, .f32⟩ : BufTy).Contents (Elt Ideal)) (x1 : (⟨S64x64, .f32⟩ : BufTy).Contents (Elt Ideal))
  (x2 x3 : (⟨S1000000, .i32⟩ : BufTy).Contents (Elt Ideal))

/-- The node factors from the out-degrees. -/
abbrev no : (⟨S100000, .f32⟩ : BufTy).Contents (Elt Ideal) := val_main_v12 (F := Ideal) x2
/-- The node factors from the in-degrees. -/
abbrev ni : (⟨S100000, .f32⟩ : BufTy).Contents (Elt Ideal) := val_main_v18 (F := Ideal) x3

/-- One propagation step: for every edge gather its source node's row, and add the gathered rows into the rows of
    the edges' destination nodes, starting from zero. -/
def propagate (h : (⟨S100000x64, .f32⟩ : BufTy).Contents (Elt Ideal)) (x2 x3 : (⟨S1000000, .i32⟩ : BufTy).Contents (Elt Ideal)) :
    (⟨S100000x64, .f32⟩ : BufTy).Contents (Elt Ideal) :=
  Host.scatterAdd (F := Ideal) (φ := .f32) scatter_S100000x64_S1000000x1_S1000000x64_1_0_0_1 (val_main_v29 (F := Ideal)) (val_main_v30 (F := Ideal) x3)
    (Host.gather gather_S100000x64_S1000000x1_S1000000x64_1_0_n_n_0_1_164 h (val_main_v27 (F := Ideal) x2))

/-! ## A node vector broadcast along the rows, read at an index -/

theorem rows_v20 (i : S100000x64.Idx) : val_main_v20 (F := Ideal) x2 i = no x2 (Sgc.nodeOf i) := by
  rw [val_main_v20_apply, val_main_v19_apply]
  exact congrArg _ (funext fun a => match a with | ⟨0, _⟩ => rfl)
theorem rows_v33 (i : S100000x64.Idx) : val_main_v33 (F := Ideal) x3 i = ni x3 (Sgc.nodeOf i) := by
  rw [val_main_v33_apply, val_main_v32_apply]
  exact congrArg _ (funext fun a => match a with | ⟨0, _⟩ => rfl)
theorem rows_v36 (i : S100000x64.Idx) : val_main_v36 (F := Ideal) x2 i = no x2 (Sgc.nodeOf i) := by
  rw [val_main_v36_apply, val_main_v35_apply]
  exact congrArg _ (funext fun a => match a with | ⟨0, _⟩ => rfl)
theorem rows_v49 (i : S100000x64.Idx) : val_main_v49 (F := Ideal) x3 i = ni x3 (Sgc.nodeOf i) := by
  rw [val_main_v49_apply, val_main_v48_apply]
  exact congrArg _ (funext fun a => match a with | ⟨0, _⟩ => rfl)

theorem lidx_eq (i : S100000x64.Idx) (k : Fin 64) : lidx_main_v51 i k = Sgc.inRow i k :=
  funext fun a => match a with | ⟨0, _⟩ => rfl | ⟨1, _⟩ => rfl
theorem ridx_eq (i : S100000x64.Idx) (k : Fin 64) : ridx_main_v51 i k = Sgc.inCol i k :=
  funext fun a => match a with | ⟨0, _⟩ => rfl | ⟨1, _⟩ => rfl

/-! ## The stages -/

theorem v21_eq : val_main_v21 (F := Ideal) x0 x2 = Sgc.scaleRows x0 (no x2) :=
  funext fun i => by rw [val_main_v21_apply, rows_v20]; rfl

theorem v31_eq : val_main_v31 (F := Ideal) x0 x2 x3 = propagate (val_main_v21 (F := Ideal) x0 x2) x2 x3 := rfl

theorem v34_eq : val_main_v34 (F := Ideal) x0 x2 x3 = Sgc.scaleRows (val_main_v31 (F := Ideal) x0 x2 x3) (ni x3) :=
  funext fun i => by rw [val_main_v34_apply, rows_v33]; rfl

theorem v37_eq : val_main_v37 (F := Ideal) x0 x2 x3 = Sgc.scaleRows (val_main_v34 (F := Ideal) x0 x2 x3) (no x2) :=
  funext fun i => by rw [val_main_v37_apply, rows_v36]; rfl

theorem v47_eq : val_main_v47 (F := Ideal) x0 x2 x3 = propagate (val_main_v37 (F := Ideal) x0 x2 x3) x2 x3 := rfl

theorem v52_eq : val_main_v52 (F := Ideal) x0 x1 x2 x3 = Sgc.projRelu (val_main_v47 (F := Ideal) x0 x2 x3) (ni x3) x1 :=
  funext fun i => by
    rw [val_main_v52_apply, val_main_v51_apply, val_main_call2_v0_apply, val_main_call2_cst_apply]
    unfold Sgc.projRelu
    show max (∑ k : Fin 64, val_main_v50 (F := Ideal) x0 x2 x3 (lidx_main_v51 i k) * x1 (ridx_main_v51 i k)) (Ideal.ofBits .f32 0x00000000#32) = _
    refine congrArg (fun s => max s (Ideal.ofBits .f32 0x00000000#32)) (Finset.sum_congr rfl fun k _ => ?_)
    rw [val_main_v50_apply, rows_v49, lidx_eq, ridx_eq]
    rfl

/-- The reference's result: two propagation steps between row scalings, the two scalings in the middle folded into
    one by the product of the node factors; then the product with the weights, cut at zero. -/
theorem result_eq : val_main_v52 (F := Ideal) x0 x1 x2 x3
    = Sgc.projRelu (propagate (Sgc.scaleRows (propagate (Sgc.scaleRows x0 (no x2)) x2 x3) (fun r => ni x3 r * no x2 r)) x2 x3) (ni x3) x1 := by
  rw [v52_eq, v47_eq, v37_eq, v34_eq, Sgc.scaleRows_scaleRows, v31_eq, v21_eq]

end Cert.ReferenceIdeal.Stages

end
-- ==== Proof.KernelRun.lean ====
/-
  The idealized kernel's run with its result named.

  The program is three grid launches among stretches of host operations. Its buffers at each boundary between a
  stretch and a launch are a fold from the launch memory (`Gen.W0 … Gen.W10`): a stretch applies its operations, a
  launch replaces each of its arrays by what its write-backs leave. Every weakly fair execution terminates with each
  live buffer at the last stage of that fold; here the result buffer is kept in the statement beside the four
  arguments, so that what the kernel computes can be read off the fold.
-/
import proofs.«107755_j35914516529298_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- the launch theorem's implicit arguments are found by unifying its conclusion with this one, which takes unfolding
-- plain definitions in a metavariable's type
set_option backward.isDefEq.respectTransparency.types false in
/-- From any memory with zero counters every weakly fair execution terminates, nothing faulting; the result buffer ends
    at the last stage of the fold of buffer contents through the program, and the four arguments end as launched. -/
theorem run_result : θ_run defs (onTc (τ := τ) (main (F := F))) ⟨m, fun _ => 0, ρ⟩ (fun r => ∀ c : Dev nD,
      r.2.mem ((c.tc : Thread nD τ).loc main_v45) = W10 m ρ c (Proc.devRef .tc main_v45)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v45 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c)⟩)

end Cert.KernelIdeal.Whole

end
-- ==== Proof.RegionScale0.lean ====
/-
  Launch 0 of the idealized kernel as one function of the arrays it finds.

  The launch walks the 100000 rows in 10 blocks of 10000. At a block it loads the block's rows and the block's
  entries of a column of node factors, and stores every row times its node's factor. The output's blocks tile the
  array, so after the launch the output array is the input array with every row scaled by its column entry
  (`Sgc.scaleByCol`), whatever the arrays held at entry.
-/
import proofs.«107755_j35914516529298_1_alg».proof.Proof.Gen.KernelIdeal.Frame
import proofs.«107755_j35914516529298_1_alg».proof.Proof.Spec
import Idealize.ShloMosaic.Lib.Pipeline.Value
import Idealize.ShloMosaic.Lib.ValueIdx

set_option maxRecDepth 16384

noncomputable section

namespace Cert.KernelIdeal.Whole.Scale0

open Cert.KernelIdeal Cert.KernelIdeal.Gen Idealize.ShloMosaic Idealize.ShloMosaic.TcCoe Idealize.SL.Sem
open Idealize.ShloMosaic.Pipeline (Dat)

theorem zero_offsets : (![0, 0] : Fin 2 → Nat) = fun _ => 0 := funext fun a => by fin_cases a <;> rfl

/-- The column entry of a block row: row `y 0`, lane 0. -/
abbrev rowEntry (y : S10000x64.Idx) : S10000x1.Idx := fun a => match a with
  | ⟨0, _⟩ => ⟨(y 0).val, (y 0).isLt⟩
  | ⟨1, _⟩ => ⟨0, Nat.one_pos⟩

/-- What the body stores, at an index of the block: the loaded row entry times the row's column entry. -/
theorem stored_apply (x0 : Vec Ideal S10000x64 .f32) (x1 : Vec Ideal S10000x1 .f32) (y : S10000x64.Idx) :
    k0_pay1 x0 x1 y = x0 y * x1 (rowEntry y) := by
  unfold k0_pay1
  show x0 y * broadcastTo S10000x64 (shapeCast S10000x1 x1 _) _ y = _
  rw [shapeCast_self]
  rw [broadcastTo_apply x1 _ y (rowEntry y) (fun a => match a with
    | ⟨0, _⟩ => by show (y 0).val = if (10000 : Nat) = 1 then 0 else (y 0).val; rw [if_neg (by decide)]
    | ⟨1, _⟩ => by show 0 = if (1 : Nat) = 1 then 0 else (y 1).val; rw [if_pos rfl])]

variable (V : (c : Dev nD) → (b : Ref sig .tc) → Buf (Elt Ideal) ((c : Thread nD τ).loc b))

/-- The printed index maps over the 10 points: all three windows sit at block row `t`, block column 0. -/
theorem index_facts : ∀ t : Fin cfg0.N, win0_0.index t (0 : Fin 2) = win0_2.index t (0 : Fin 2)
    ∧ win0_0.index t (1 : Fin 2) = win0_2.index t (1 : Fin 2)
    ∧ win0_1.index t (0 : Fin 2) = win0_2.index t (0 : Fin 2)
    ∧ win0_1.index t (1 : Fin 2) = 0
    ∧ win0_2.index t (0 : Fin 2) = t.val
    ∧ win0_2.index t (1 : Fin 2) = 0 :=
  (by decide +kernel : ∀ t : Fin grid0.N, _)

/-- What point `t` writes back is block `t` of the scaled array. -/
theorem flushed_eq (c : Dev nD) (t : Fin cfg0.N) :
    (dat0 V c).flushed 2 t
      = ((cfg0.win 2).blk t).view.read (Elt Ideal) (Sgc.scaleByCol (V c main_arg0) (V c main_v19)) := by
  show (cfg0.win 2).cut (grid0.coords t) ((dat0 V c).after 2 t) = _
  rw [after0_2]
  unfold out0_2
  rw [View.canon_unit_zero zero_offsets]
  simp only [View.ld_unit_zero (S := S10000x64) zero_offsets, View.ld_unit_zero (S := S10000x1) zero_offsets]
  obtain ⟨e0, e1, e2, e3, e4, e5⟩ := index_facts t
  funext j
  refine (stored_apply (iblk0 V c 0 t) (iblk0 V c 1 t) j).trans ?_
  -- the two arrays as the launch finds them, at their literal types
  let A : S100000x64.Idx → EReal := V c main_arg0
  let N : S100000x1.Idx → EReal := V c main_v19
  show A (((cfg0.win 0).blk t).view.emb j) * N (((cfg0.win 1).blk t).view.emb (rowEntry j))
    = A (((cfg0.win 2).blk t).view.emb j) * N (Sgc.colOf (((cfg0.win 2).blk t).view.emb j))
  have h0 : ((cfg0.win 0).blk t).view.emb j = ((cfg0.win 2).blk t).view.emb j := by
    funext a; apply Fin.ext
    match a with
    | ⟨0, _⟩ => show win0_0.index t (0 : Fin 2) * 10000 + 1 * (j 0).val = win0_2.index t (0 : Fin 2) * 10000 + 1 * (j 0).val; omega
    | ⟨1, _⟩ => show win0_0.index t (1 : Fin 2) * 64 + 1 * (j 1).val = win0_2.index t (1 : Fin 2) * 64 + 1 * (j 1).val; omega
  have h1 : ((cfg0.win 1).blk t).view.emb (rowEntry j) = Sgc.colOf (((cfg0.win 2).blk t).view.emb j) := by
    funext a; apply Fin.ext
    match a with
    | ⟨0, _⟩ => show win0_1.index t (0 : Fin 2) * 10000 + 1 * (j 0).val = win0_2.index t (0 : Fin 2) * 10000 + 1 * (j 0).val; omega
    | ⟨1, _⟩ => show win0_1.index t (1 : Fin 2) * 1 + 1 * 0 = 0; omega
  rw [h0, h1]

/-- An index of the array is in point `t`'s block iff each coordinate is in the block's range on its axis. -/
theorem mem_block (t : Fin cfg0.N) (i : S100000x64.Idx) :
    i ∈ ((cfg0.win 2).blk t).view.set ↔ ∀ a : Fin 2, win0_2.index t a * S10000x64.size a ≤ (i a).val ∧ (i a).val < win0_2.index t a * S10000x64.size a + S10000x64.size a := by
  show i ∈ ((View.whole main_v23).slice (win0_2.rect t)).set ↔ _
  rw [View.set_slice_whole, Rect.mem_set_unit]
  exact Iff.rfl

/-- Row `r` lies in the block of point `r / 10000`: the ten blocks tile the array. -/
theorem cover (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  have hN : grid0.N = 10 := N_0
  have ht : (i 0).val / 10000 < grid0.N := by rw [hN]; omega
  refine ⟨⟨(i 0).val / 10000, ht⟩, flush0_2 _, ?_⟩
  rw [mem_block]
  obtain ⟨-, -, -, -, e4, e5⟩ := index_facts ⟨(i 0).val / 10000, ht⟩
  intro a
  match a with
  | ⟨0, _⟩ =>
    show win0_2.index ⟨(i 0).val / 10000, ht⟩ (0 : Fin 2) * 10000 ≤ (i 0).val ∧ (i 0).val < win0_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win0_2.index ⟨(i 0).val / 10000, ht⟩ (1 : Fin 2) * 64 ≤ (i 1).val ∧ (i 1).val < win0_2.index ⟨(i 0).val / 10000, ht⟩ (1 : Fin 2) * 64 + 64
    rw [e5]; omega

/-- After the launch the output array is the input array, every row scaled by its column entry. -/
theorem whole (c : Dev nD) :
    (dat0 V c).arrAt 2 cfg0.N = Sgc.scaleByCol (V c main_arg0) (V c main_v19) :=
  (dat0 V c).arrAt_eq_of_cover 2 _ (fun t _ => flushed_eq V c t) cover

end Cert.KernelIdeal.Whole.Scale0

end
-- ==== Proof.RegionScale1.lean ====
/-
  Launch 1 of the idealized kernel as one function of the arrays it finds.

  The launch walks the 100000 rows in 10 blocks of 10000. At a block it loads the block's rows and the block's
  entries of a column of node factors, and stores every row times its node's factor. The output's blocks tile the
  array, so after the launch the output array is the input array with every row scaled by its column entry
  (`Sgc.scaleByCol`), whatever the arrays held at entry.
-/
import proofs.«107755_j35914516529298_1_alg».proof.Proof.Gen.KernelIdeal.Frame
import proofs.«107755_j35914516529298_1_alg».proof.Proof.Spec
import Idealize.ShloMosaic.Lib.Pipeline.Value
import Idealize.ShloMosaic.Lib.ValueIdx

set_option maxRecDepth 16384

noncomputable section

namespace Cert.KernelIdeal.Whole.Scale1

open Cert.KernelIdeal Cert.KernelIdeal.Gen Idealize.ShloMosaic Idealize.ShloMosaic.TcCoe Idealize.SL.Sem
open Idealize.ShloMosaic.Pipeline (Dat)

theorem zero_offsets : (![0, 0] : Fin 2 → Nat) = fun _ => 0 := funext fun a => by fin_cases a <;> rfl

/-- The column entry of a block row: row `y 0`, lane 0. -/
abbrev rowEntry (y : S10000x64.Idx) : S10000x1.Idx := fun a => match a with
  | ⟨0, _⟩ => ⟨(y 0).val, (y 0).isLt⟩
  | ⟨1, _⟩ => ⟨0, Nat.one_pos⟩

/-- What the body stores, at an index of the block: the loaded row entry times the row's column entry. -/
theorem stored_apply (x0 : Vec Ideal S10000x64 .f32) (x1 : Vec Ideal S10000x1 .f32) (y : S10000x64.Idx) :
    k1_pay1 x0 x1 y = x0 y * x1 (rowEntry y) := by
  unfold k1_pay1
  show shapeCast S10000x64 x0 _ y * broadcastTo S10000x64 (shapeCast S10000x1 x1 _) _ y = _
  rw [shapeCast_self, shapeCast_self]
  rw [broadcastTo_apply x1 _ y (rowEntry y) (fun a => match a with
    | ⟨0, _⟩ => by show (y 0).val = if (10000 : Nat) = 1 then 0 else (y 0).val; rw [if_neg (by decide)]
    | ⟨1, _⟩ => by show 0 = if (1 : Nat) = 1 then 0 else (y 1).val; rw [if_pos rfl])]

variable (V : (c : Dev nD) → (b : Ref sig .tc) → Buf (Elt Ideal) ((c : Thread nD τ).loc b))

/-- The printed index maps over the 10 points: all three windows sit at block row `t`, block column 0. -/
theorem index_facts : ∀ t : Fin cfg1.N, win1_0.index t (0 : Fin 2) = win1_2.index t (0 : Fin 2)
    ∧ win1_0.index t (1 : Fin 2) = win1_2.index t (1 : Fin 2)
    ∧ win1_1.index t (0 : Fin 2) = win1_2.index t (0 : Fin 2)
    ∧ win1_1.index t (1 : Fin 2) = 0
    ∧ win1_2.index t (0 : Fin 2) = t.val
    ∧ win1_2.index t (1 : Fin 2) = 0 :=
  (by decide +kernel : ∀ t : Fin grid1.N, _)

/-- What point `t` writes back is block `t` of the scaled array. -/
theorem flushed_eq (c : Dev nD) (t : Fin cfg1.N) :
    (dat1 V c).flushed 2 t
      = ((cfg1.win 2).blk t).view.read (Elt Ideal) (Sgc.scaleByCol (V c main_v33) (V c main_v22)) := by
  show (cfg1.win 2).cut (grid1.coords t) ((dat1 V c).after 2 t) = _
  rw [after1_2]
  unfold out1_2
  rw [View.canon_unit_zero zero_offsets]
  simp only [View.ld_unit_zero (S := S10000x64) zero_offsets, View.ld_unit_zero (S := S10000x1) zero_offsets]
  obtain ⟨e0, e1, e2, e3, e4, e5⟩ := index_facts t
  funext j
  refine (stored_apply (iblk1 V c 0 t) (iblk1 V c 1 t) j).trans ?_
  -- the two arrays as the launch finds them, at their literal types
  let A : S100000x64.Idx → EReal := V c main_v33
  let N : S100000x1.Idx → EReal := V c main_v22
  show A (((cfg1.win 0).blk t).view.emb j) * N (((cfg1.win 1).blk t).view.emb (rowEntry j))
    = A (((cfg1.win 2).blk t).view.emb j) * N (Sgc.colOf (((cfg1.win 2).blk t).view.emb j))
  have h0 : ((cfg1.win 0).blk t).view.emb j = ((cfg1.win 2).blk t).view.emb j := by
    funext a; apply Fin.ext
    match a with
    | ⟨0, _⟩ => show win1_0.index t (0 : Fin 2) * 10000 + 1 * (j 0).val = win1_2.index t (0 : Fin 2) * 10000 + 1 * (j 0).val; omega
    | ⟨1, _⟩ => show win1_0.index t (1 : Fin 2) * 64 + 1 * (j 1).val = win1_2.index t (1 : Fin 2) * 64 + 1 * (j 1).val; omega
  have h1 : ((cfg1.win 1).blk t).view.emb (rowEntry j) = Sgc.colOf (((cfg1.win 2).blk t).view.emb j) := by
    funext a; apply Fin.ext
    match a with
    | ⟨0, _⟩ => show win1_1.index t (0 : Fin 2) * 10000 + 1 * (j 0).val = win1_2.index t (0 : Fin 2) * 10000 + 1 * (j 0).val; omega
    | ⟨1, _⟩ => show win1_1.index t (1 : Fin 2) * 1 + 1 * 0 = 0; omega
  rw [h0, h1]

/-- An index of the array is in point `t`'s block iff each coordinate is in the block's range on its axis. -/
theorem mem_block (t : Fin cfg1.N) (i : S100000x64.Idx) :
    i ∈ ((cfg1.win 2).blk t).view.set ↔ ∀ a : Fin 2, win1_2.index t a * S10000x64.size a ≤ (i a).val ∧ (i a).val < win1_2.index t a * S10000x64.size a + S10000x64.size a := by
  show i ∈ ((View.whole main_v34).slice (win1_2.rect t)).set ↔ _
  rw [View.set_slice_whole, Rect.mem_set_unit]
  exact Iff.rfl

/-- Row `r` lies in the block of point `r / 10000`: the ten blocks tile the array. -/
theorem cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : grid1.N = 10 := N_1
  have ht : (i 0).val / 10000 < grid1.N := by rw [hN]; omega
  refine ⟨⟨(i 0).val / 10000, ht⟩, flush1_2 _, ?_⟩
  rw [mem_block]
  obtain ⟨-, -, -, -, e4, e5⟩ := index_facts ⟨(i 0).val / 10000, ht⟩
  intro a
  match a with
  | ⟨0, _⟩ =>
    show win1_2.index ⟨(i 0).val / 10000, ht⟩ (0 : Fin 2) * 10000 ≤ (i 0).val ∧ (i 0).val < win1_2.index ⟨(i 0).val / 10000, ht⟩ (0 : Fin 2) * 10000 + 10000
    rw [e4]; show (i 0).val / 10000 * 10000 ≤ (i 0).val ∧ (i 0).val < (i 0).val / 10000 * 10000 + 10000; omega
  | ⟨1, _⟩ =>
    show win1_2.index ⟨(i 0).val / 10000, ht⟩ (1 : Fin 2) * 64 ≤ (i 1).val ∧ (i 1).val < win1_2.index ⟨(i 0).val / 10000, ht⟩ (1 : Fin 2) * 64 + 64
    rw [e5]; omega

/-- After the launch the output array is the input array, every row scaled by its column entry. -/
theorem whole (c : Dev nD) :
    (dat1 V c).arrAt 2 cfg1.N = Sgc.scaleByCol (V c main_v33) (V c main_v22) :=
  (dat1 V c).arrAt_eq_of_cover 2 _ (fun t _ => flushed_eq V c t) cover

end Cert.KernelIdeal.Whole.Scale1

end
-- ==== Proof.RegionProj.lean ====
/-
  The last launch of the idealized kernel as one function of the arrays it finds.

  The launch walks the 100000 rows in 10 blocks of 10000; the 64 × 64 weight matrix is staged whole. At a block it
  scales every row by its node's column entry, multiplies the scaled rows by the weights on the matrix unit into a zero
  accumulator, and stores the maximum of the product and zero. On the extended reals the two narrowings to bf16 are the
  identity and the matrix unit's result at (r, c) is the plain sum over k of (row r, entry k) · (weight k, c). The
  output's blocks tile the array, so after the launch the output array is `Sgc.projReluByCol` of the three input arrays.
-/
import proofs.«107755_j35914516529298_1_alg».proof.Proof.Gen.KernelIdeal.Frame
import proofs.«107755_j35914516529298_1_alg».proof.Proof.Spec
import Idealize.ShloMosaic.Lib.Pipeline.Value
import Idealize.ShloMosaic.Lib.ValueIdx
import Idealize.ShloMosaic.PureOps.Ideal.Laws

set_option maxRecDepth 16384

noncomputable section

namespace Cert.KernelIdeal.Whole.Proj

open Cert.KernelIdeal Cert.KernelIdeal.Gen Idealize.ShloMosaic Idealize.ShloMosaic.TcCoe Idealize.SL.Sem
open Idealize.ShloMosaic.Pipeline (Dat)

theorem zero_offsets : (![0, 0] : Fin 2 → Nat) = fun _ => 0 := funext fun a => by fin_cases a <;> rfl

/-- The column entry of a block row: row `y 0`, lane 0. -/
abbrev rowEntry (y : S10000x64.Idx) : S10000x1.Idx := fun a => match a with
  | ⟨0, _⟩ => ⟨(y 0).val, (y 0).isLt⟩
  | ⟨1, _⟩ => ⟨0, Nat.one_pos⟩
/-- Entry `k` of the block row of `y`. -/
abbrev blkRow (y : S10000x64.Idx) (k : Fin 64) : S10000x64.Idx := fun a => match a with
  | ⟨0, _⟩ => ⟨(y 0).val, (y 0).isLt⟩
  | ⟨1, _⟩ => ⟨k.val, k.isLt⟩
/-- Entry `k` of the weight column of `y`. -/
abbrev wtCol (y : S10000x64.Idx) (k : Fin 64) : S64x64.Idx := fun a => match a with
  | ⟨0, _⟩ => ⟨k.val, k.isLt⟩
  | ⟨1, _⟩ => ⟨(y 1).val, (y 1).isLt⟩

/-- A block's rows times the broadcast of a block's column, at an index. -/
theorem scaled_apply (x0 : Vec Ideal S10000x64 .f32) (x1 : Vec Ideal S10000x1 .f32)
    (h0 : S10000x64.ShapeCasts S10000x64) (h1 : S10000x1.ShapeCasts S10000x1) (hb : S10000x1.Broadcasts S10000x64)
    (z : S10000x64.Idx) :
    mulf (F := Ideal) (φ := .f32) (shapeCast S10000x64 x0 h0) (broadcastTo S10000x64 (shapeCast S10000x1 x1 h1) hb) z = x0 z * x1 (rowEntry z) := by
  show shapeCast S10000x64 x0 h0 z * broadcastTo S10000x64 (shapeCast S10000x1 x1 h1) hb z = _
  rw [shapeCast_self, shapeCast_self]
  rw [broadcastTo_apply x1 hb z (rowEntry z) (fun a => match a with
    | ⟨0, _⟩ => by show (z 0).val = if (10000 : Nat) = 1 then 0 else (z 0).val; rw [if_neg (by decide)]
    | ⟨1, _⟩ => by show 0 = if (1 : Nat) = 1 then 0 else (z 1).val; rw [if_pos rfl])]

/-! The operand indices of the matrix unit's contraction at an output index: (row, k) on the left, (k, column) on the
    right. -/

theorem lhs_0 (i : S10000x64.Idx) (q : dot_S10000x64_S64x64_S10000x64_1_0_0_1_n_n.contr.Idx) : (dot_S10000x64_S64x64_S10000x64_1_0_0_1_n_n.lhsIdx i q 0).val = (i 0).val := by
  unfold DotDims.lhsIdx
  rw [dif_neg (show ¬(0 : Fin S10000x64.rank) ∈ dot_S10000x64_S64x64_S10000x64_1_0_0_1_n_n.lhsBatch by decide), dif_pos (show (0 : Fin S10000x64.rank) ∈ dot_S10000x64_S64x64_S10000x64_1_0_0_1_n_n.lhsNonContracting by decide)]
  rfl
theorem lhs_1 (i : S10000x64.Idx) (q : dot_S10000x64_S64x64_S10000x64_1_0_0_1_n_n.contr.Idx) : (dot_S10000x64_S64x64_S10000x64_1_0_0_1_n_n.lhsIdx i q 1).val = (q ⟨0, by decide⟩).val :=
  dot_S10000x64_S64x64_S10000x64_1_0_0_1_n_n.lhsIdx_val_of_single rfl i q
theorem rhs_0 (i : S10000x64.Idx) (q : dot_S10000x64_S64x64_S10000x64_1_0_0_1_n_n.contr.Idx) : (dot_S10000x64_S64x64_S10000x64_1_0_0_1_n_n.rhsIdx i q 0).val = (q ⟨0, by decide⟩).val :=
  dot_S10000x64_S64x64_S10000x64_1_0_0_1_n_n.rhsIdx_val_of_single rfl i q
theorem rhs_1 (i : S10000x64.Idx) (q : dot_S10000x64_S64x64_S10000x64_1_0_0_1_n_n.contr.Idx) : (dot_S10000x64_S64x64_S10000x64_1_0_0_1_n_n.rhsIdx i q 1).val = (i 1).val := by
  unfold DotDims.rhsIdx
  rw [dif_neg (show ¬(1 : Fin S64x64.rank) ∈ dot_S10000x64_S64x64_S10000x64_1_0_0_1_n_n.rhsBatch by decide), dif_pos (show (1 : Fin S64x64.rank) ∈ dot_S10000x64_S64x64_S10000x64_1_0_0_1_n_n.rhsNonContracting by decide)]
  rfl

/-- What the body stores, at an index of the block: the maximum with zero of the sum over `k` of the scaled row entry
    times the weight. -/
theorem stored_apply (x0 : Vec Ideal S10000x64 .f32) (x1 : Vec Ideal S10000x1 .f32) (x2 : Vec Ideal S64x64 .f32) (y : S10000x64.Idx) :
    k2_pay1 x0 x1 x2 y
      = max (∑ k : Fin 64, (x0 (blkRow y k) * x1 (rowEntry (blkRow y k))) * x2 (wtCol y k)) (Ideal.ofBits .f32 0x00000000#32) := by
  unfold k2_pay1
  show max (FloatOps.matmul dot_S10000x64_S64x64_S10000x64_1_0_0_1_n_n none
      (truncf .bf16 (mulf (F := Ideal) (φ := .f32) (shapeCast S10000x64 x0 _) (broadcastTo S10000x64 (shapeCast S10000x1 x1 _) _)) _)
      (truncf .bf16 x2 _) (constant (F := Ideal) S10000x64 .f32 0x00000000#32) y) (Ideal.ofBits .f32 0x00000000#32) = _
  refine congrArg (fun s => max s (Ideal.ofBits .f32 0x00000000#32)) ?_
  rw [Ideal.matmul_constant_zero_apply, ← Equiv.sum_comp (ValueIdx.contrEquiv1 dot_S10000x64_S64x64_S10000x64_1_0_0_1_n_n 64 rfl rfl).symm]
  refine Finset.sum_congr rfl fun k _ => ?_
  have hk := ValueIdx.contrEquiv1_symm_val dot_S10000x64_S64x64_S10000x64_1_0_0_1_n_n 64 rfl rfl k
  have el : dot_S10000x64_S64x64_S10000x64_1_0_0_1_n_n.lhsIdx y ((ValueIdx.contrEquiv1 dot_S10000x64_S64x64_S10000x64_1_0_0_1_n_n 64 rfl rfl).symm k) = blkRow y k := funext fun a => Fin.ext (by
    match a with
    | ⟨0, _⟩ => exact lhs_0 _ _
    | ⟨1, _⟩ => exact (lhs_1 _ _).trans hk)
  have er : dot_S10000x64_S64x64_S10000x64_1_0_0_1_n_n.rhsIdx y ((ValueIdx.contrEquiv1 dot_S10000x64_S64x64_S10000x64_1_0_0_1_n_n 64 rfl rfl).symm k) = wtCol y k := funext fun a => Fin.ext (by
    match a with
    | ⟨0, _⟩ => exact (rhs_0 _ _).trans hk
    | ⟨1, _⟩ => exact rhs_1 _ _)
  rw [el, er]
  show mulf (F := Ideal) (φ := .f32) (shapeCast S10000x64 x0 _) (broadcastTo S10000x64 (shapeCast S10000x1 x1 _) _) (blkRow y k) * x2 (wtCol y k) = _
  rw [scaled_apply]

variable (V : (c : Dev nD) → (b : Ref sig .tc) → Buf (Elt Ideal) ((c : Thread nD τ).loc b))

/-- The printed index maps over the 10 points: the row windows and the output sit at block row `t`, block column 0;
    the weights' window never moves. -/
theorem index_facts : ∀ t : Fin cfg2.N, win2_0.index t (0 : Fin 2) = win2_3.index t (0 : Fin 2)
    ∧ win2_0.index t (1 : Fin 2) = 0
    ∧ win2_1.index t (0 : Fin 2) = win2_3.index t (0 : Fin 2)
    ∧ win2_1.index t (1 : Fin 2) = 0
    ∧ win2_2.index t (0 : Fin 2) = 0
    ∧ win2_2.index t (1 : Fin 2) = 0
    ∧ win2_3.index t (0 : Fin 2) = t.val
    ∧ win2_3.index t (1 : Fin 2) = 0 :=
  (by decide +kernel : ∀ t : Fin grid2.N, _)

/-- What point `t` writes back is block `t` of the projected array. -/
theorem flushed_eq (c : Dev nD) (t : Fin cfg2.N) :
    (dat2 V c).flushed 3 t
      = ((cfg2.win 3).blk t).view.read (Elt Ideal) (Sgc.projReluByCol (V c main_v44) (V c main_v20) (V c main_arg1)) := by
  show (cfg2.win 3).cut (grid2.coords t) ((dat2 V c).after 3 t) = _
  rw [after2_3]
  unfold out2_3
  rw [View.canon_unit_zero zero_offsets]
  simp only [View.ld_unit_zero (S := S10000x64) zero_offsets, View.ld_unit_zero (S := S10000x1) zero_offsets,
    View.ld_unit_zero (S := S64x64) zero_offsets]
  obtain ⟨e0, e1, e2, e3, e4, e5, e6, e7⟩ := index_facts t
  funext j
  refine (stored_apply (iblk2 V c 0 t) (iblk2 V c 1 t) (iblk2 V c 2 t) j).trans ?_
  show _ = Sgc.projReluByCol (V c main_v44) (V c main_v20) (V c main_arg1) (((cfg2.win 3).blk t).view.emb j)
  unfold Sgc.projReluByCol
  refine congrArg (fun s => max s (Ideal.ofBits .f32 0x00000000#32)) (Finset.sum_congr rfl fun k _ => ?_)
  -- the three arrays as the launch finds them, at their literal types
  let A : S100000x64.Idx → EReal := V c main_v44
  let N : S100000x1.Idx → EReal := V c main_v20
  let M : S64x64.Idx → EReal := V c main_arg1
  show (A (((cfg2.win 0).blk t).view.emb (blkRow j k)) * N (((cfg2.win 1).blk t).view.emb (rowEntry (blkRow j k))))
        * M (((cfg2.win 2).blk t).view.emb (wtCol j k))
    = (A (Sgc.inRow (((cfg2.win 3).blk t).view.emb j) k) * N (Sgc.colOf (Sgc.inRow (((cfg2.win 3).blk t).view.emb j) k)))
        * M (Sgc.inCol (((cfg2.win 3).blk t).view.emb j) k)
  have h0 : ((cfg2.win 0).blk t).view.emb (blkRow j k) = Sgc.inRow (((cfg2.win 3).blk t).view.emb j) k := by
    funext a; apply Fin.ext
    match a with
    | ⟨0, _⟩ => show win2_0.index t (0 : Fin 2) * 10000 + 1 * (j 0).val = win2_3.index t (0 : Fin 2) * 10000 + 1 * (j 0).val; omega
    | ⟨1, _⟩ => show win2_0.index t (1 : Fin 2) * 64 + 1 * k.val = k.val; omega
  have h1 : ((cfg2.win 1).blk t).view.emb (rowEntry (blkRow j k)) = Sgc.colOf (Sgc.inRow (((cfg2.win 3).blk t).view.emb j) k) := by
    funext a; apply Fin.ext
    match a with
    | ⟨0, _⟩ => show win2_1.index t (0 : Fin 2) * 10000 + 1 * (j 0).val = win2_3.index t (0 : Fin 2) * 10000 + 1 * (j 0).val; omega
    | ⟨1, _⟩ => show win2_1.index t (1 : Fin 2) * 1 + 1 * 0 = 0; omega
  have h2 : ((cfg2.win 2).blk t).view.emb (wtCol j k) = Sgc.inCol (((cfg2.win 3).blk t).view.emb j) k := by
    funext a; apply Fin.ext
    match a with
    | ⟨0, _⟩ => show win2_2.index t (0 : Fin 2) * 64 + 1 * k.val = k.val; omega
    | ⟨1, _⟩ => show win2_2.index t (1 : Fin 2) * 64 + 1 * (j 1).val = win2_3.index t (1 : Fin 2) * 64 + 1 * (j 1).val; omega
  rw [h0, h1, h2]

/-- An index of the array is in point `t`'s block iff each coordinate is in the block's range on its axis. -/
theorem mem_block (t : Fin cfg2.N) (i : S100000x64.Idx) :
    i ∈ ((cfg2.win 3).blk t).view.set ↔ ∀ a : Fin 2, win2_3.index t a * S10000x64.size a ≤ (i a).val ∧ (i a).val < win2_3.index t a * S10000x64.size a + S10000x64.size a := by
  show i ∈ ((View.whole main_v45).slice (win2_3.rect t)).set ↔ _
  rw [View.set_slice_whole, Rect.mem_set_unit]
  exact Iff.rfl

/-- Row `r` lies in the block of point `r / 10000`: the ten blocks tile the array. -/
theorem cover (i : S100000x64.Idx) :
    ∃ t : Fin cfg2.N, (cfg2.win 3).flush t = true ∧ i ∈ ((cfg2.win 3).blk t).view.set := by
  have hi0 : (i 0).val < 100000 := (i 0).isLt
  have hi1 : (i 1).val < 64 := (i 1).isLt
  have hN : grid2.N = 10 := N_2
  have ht : (i 0).val / 10000 < grid2.N := by rw [hN]; omega
  refine ⟨⟨(i 0).val / 10000, ht⟩, flush2_3 _, ?_⟩
  rw [mem_block]
  obtain ⟨-, -, -, -, -, -, e6, e7⟩ := index_facts ⟨(i 0).val / 10000, ht⟩
  intro a
  match a with
  | ⟨0, _⟩ =>
    show win2_3.index ⟨(i 0).val / 10000, ht⟩ (0 : Fin 2) * 10000 ≤ (i 0).val ∧ (i 0).val < win2_3.index ⟨(i 0).val / 10000, ht⟩ (0 : Fin 2) * 10000 + 10000
    rw [e6]; show (i 0).val / 10000 * 10000 ≤ (i 0).val ∧ (i 0).val < (i 0).val / 10000 * 10000 + 10000; omega
  | ⟨1, _⟩ =>
    show win2_3.index ⟨(i 0).val / 10000, ht⟩ (1 : Fin 2) * 64 ≤ (i 1).val ∧ (i 1).val < win2_3.index ⟨(i 0).val / 10000, ht⟩ (1 : Fin 2) * 64 + 64
    rw [e7]; omega

/-- After the launch the output array is the rows scaled by their column entries, times the weights, cut at zero. -/
theorem whole (c : Dev nD) :
    (dat2 V c).arrAt 3 cfg2.N = Sgc.projReluByCol (V c main_v44) (V c main_v20) (V c main_arg1) :=
  (dat2 V c).arrAt_eq_of_cover 3 _ (fun t _ => flushed_eq V c t) cover

end Cert.KernelIdeal.Whole.Proj

end
-- ==== Proof.KernelStages.lean ====
/-
  The idealized kernel's buffers at the boundaries between its host stretches and its three launches.

  The contents are a fold from the launch memory: a stretch applies its operations, a launch replaces its output array
  by what `Scale0.whole`, `Scale1.whole`, `Proj.whole` say. Read at the buffers the launches stage:
    * before the first launch the host has computed the node factors `no`, `ni` — the same operations as the
      reference's, so the same terms — and laid out `no`, `ni` and the product `ni · no` as columns (a reshape of
      a vector of n numbers to n rows of one is the column with those entries);
    * the first launch leaves the rows of x scaled by `no`; the stretch after it is one propagation step;
    * the second launch scales the rows by the product column; the stretch after it is one propagation step;
    * the third launch scales by `ni`, multiplies by the weights and cuts at zero.
  A buffer that a stretch does not write and a launch does not stage keeps its contents across them.
-/
import proofs.«107755_j35914516529298_1_alg».proof.Proof.Gen.KernelIdeal.Frame
import proofs.«107755_j35914516529298_1_alg».proof.Proof.Spec
import proofs.«107755_j35914516529298_1_alg».proof.Proof.RefStages
import proofs.«107755_j35914516529298_1_alg».proof.Proof.RegionScale0
import proofs.«107755_j35914516529298_1_alg».proof.Proof.RegionScale1
import proofs.«107755_j35914516529298_1_alg».proof.Proof.RegionProj
import Idealize.ShloMosaic.Lib.Pipeline.Value
import Idealize.ShloMosaic.Lib.StableHlo.Run

set_option maxRecDepth 16384

noncomputable section

namespace Cert.KernelIdeal.Whole

open Cert.KernelIdeal Cert.KernelIdeal.Gen Idealize.ShloMosaic Idealize.ShloMosaic.TcCoe Idealize.SL.Sem Idealize.ShloMosaic.StableHlo
open Cert.ReferenceIdeal.Stages (propagate)

/-- A vector of one number per node reshaped to a column is the column with those entries: entry (r, 0) sits at
    row-major position r of both. -/
theorem reshape_col (v : S100000.Idx → EReal) (h : S100000.ShapeCasts S100000x1) : shapeCast S100000x1 v h = Sgc.asCol v :=
  funext fun j => shapeCast_apply v h j (Sgc.nodeOfCol j) (by
    rw [Shape.rowMajor_val_one, Shape.rowMajor_val_two]
    show (j 0).val = (j 0).val * 1 + (j 1).val
    have : (j 1).val < 1 := (j 1).isLt
    omega)

/-! ## The stretches, over any contents -/

/-- The stretch before the first launch lays the node factors and their product out as columns. -/
theorem cols_v19 (W : Valuation τ sig (Elt Ideal)) :
    (StableHlo.after (hostOps0_4 (F := Ideal)) W (Proc.devRef .tc main_v19) : S100000x1.Idx → EReal) = Sgc.asCol (W (Proc.devRef .tc main_v12)) := by
  simp only [hostOps0_4]; after_results_simp
  exact reshape_col _ _
theorem cols_v20 (W : Valuation τ sig (Elt Ideal)) :
    (StableHlo.after (hostOps0_4 (F := Ideal)) W (Proc.devRef .tc main_v20) : S100000x1.Idx → EReal) = Sgc.asCol (W (Proc.devRef .tc main_v18)) := by
  simp only [hostOps0_4]; after_results_simp
  exact reshape_col _ _
theorem cols_v22 (W : Valuation τ sig (Elt Ideal)) :
    (StableHlo.after (hostOps0_4 (F := Ideal)) W (Proc.devRef .tc main_v22) : S100000x1.Idx → EReal)
      = Sgc.asCol (mulf (F := Ideal) (s := S100000) (φ := .f32) (W (Proc.devRef .tc main_v18)) (W (Proc.devRef .tc main_v12))) := by
  simp only [hostOps0_4]; after_results_simp
  exact reshape_col _ _

/-- The stretch after the first launch is one propagation step of that launch's output. -/
theorem step_v33 (W : Valuation τ sig (Elt Ideal)) :
    (StableHlo.after (hostOps1 (F := Ideal)) W (Proc.devRef .tc main_v33) : S100000x64.Idx → EReal)
      = propagate (W (Proc.devRef .tc main_v23)) (W (Proc.devRef .tc main_arg2)) (W (Proc.devRef .tc main_arg3)) := by
  simp only [hostOps1]; after_results_simp
  rfl
/-- The stretch after the second launch is one propagation step of that launch's output. -/
theorem step_v44 (W : Valuation τ sig (Elt Ideal)) :
    (StableHlo.after (hostOps2 (F := Ideal)) W (Proc.devRef .tc main_v44) : S100000x64.Idx → EReal)
      = propagate (W (Proc.devRef .tc main_v34)) (W (Proc.devRef .tc main_arg2)) (W (Proc.devRef .tc main_arg3)) := by
  simp only [hostOps2]; after_results_simp
  rfl

/-! What the two later stretches leave alone. -/
theorem keep1_main_v22 (W : Valuation τ sig (Elt Ideal)) :
    StableHlo.after (hostOps1 (F := Ideal)) W (Proc.devRef .tc main_v22) = W (Proc.devRef .tc main_v22) := by
  simp only [hostOps1]; after_results_simp
theorem keep1_main_v20 (W : Valuation τ sig (Elt Ideal)) :
    StableHlo.after (hostOps1 (F := Ideal)) W (Proc.devRef .tc main_v20) = W (Proc.devRef .tc main_v20) := by
  simp only [hostOps1]; after_results_simp
theorem keep1_main_arg1 (W : Valuation τ sig (Elt Ideal)) :
    StableHlo.after (hostOps1 (F := Ideal)) W (Proc.devRef .tc main_arg1) = W (Proc.devRef .tc main_arg1) := by
  simp only [hostOps1]; after_results_simp
theorem keep1_main_arg2 (W : Valuation τ sig (Elt Ideal)) :
    StableHlo.after (hostOps1 (F := Ideal)) W (Proc.devRef .tc main_arg2) = W (Proc.devRef .tc main_arg2) := by
  simp only [hostOps1]; after_results_simp
theorem keep1_main_arg3 (W : Valuation τ sig (Elt Ideal)) :
    StableHlo.after (hostOps1 (F := Ideal)) W (Proc.devRef .tc main_arg3) = W (Proc.devRef .tc main_arg3) := by
  simp only [hostOps1]; after_results_simp
theorem keep2_main_v20 (W : Valuation τ sig (Elt Ideal)) :
    StableHlo.after (hostOps2 (F := Ideal)) W (Proc.devRef .tc main_v20) = W (Proc.devRef .tc main_v20) := by
  simp only [hostOps2]; after_results_simp
theorem keep2_main_arg1 (W : Valuation τ sig (Elt Ideal)) :
    StableHlo.after (hostOps2 (F := Ideal)) W (Proc.devRef .tc main_arg1) = W (Proc.devRef .tc main_arg1) := by
  simp only [hostOps2]; after_results_simp
theorem keep2_main_arg2 (W : Valuation τ sig (Elt Ideal)) :
    StableHlo.after (hostOps2 (F := Ideal)) W (Proc.devRef .tc main_arg2) = W (Proc.devRef .tc main_arg2) := by
  simp only [hostOps2]; after_results_simp
theorem keep2_main_arg3 (W : Valuation τ sig (Elt Ideal)) :
    StableHlo.after (hostOps2 (F := Ideal)) W (Proc.devRef .tc main_arg3) = W (Proc.devRef .tc main_arg3) := by
  simp only [hostOps2]; after_results_simp

/-! ## The degree prefix, stretch by stretch, over any contents

The kernel's host prefix is the reference's operation by operation; each stretch is compared with the reference's stages
over arbitrary entry contents, so that no comparison spans more than one stretch. -/

/-- First stretch: the out-degree's positivity mask and inverse square root, the in-degree, and the zero the outlined
    `where` takes. -/
theorem pre_v8 (W : Valuation τ sig (Elt Ideal)) :
    (StableHlo.after (hostOps0 (F := Ideal)) W (Proc.devRef .tc main_v8) : S100000.Idx → BitVec 1) = Cert.ReferenceIdeal.ReadP.val_main_v8 (F := Ideal) (W (Proc.devRef .tc main_arg2)) := by
  simp only [hostOps0]; after_results_simp
  rfl
theorem pre_v11 (W : Valuation τ sig (Elt Ideal)) :
    (StableHlo.after (hostOps0 (F := Ideal)) W (Proc.devRef .tc main_v11) : S100000.Idx → EReal) = Cert.ReferenceIdeal.ReadP.val_main_v11 (F := Ideal) (W (Proc.devRef .tc main_arg2)) := by
  simp only [hostOps0]; after_results_simp
  rfl
theorem pre_cst_4 (W : Valuation τ sig (Elt Ideal)) :
    (StableHlo.after (hostOps0 (F := Ideal)) W (Proc.devRef .tc main_cst_4) : S_.Idx → EReal) = Cert.ReferenceIdeal.ReadP.val_main_cst_4 (F := Ideal) := by
  simp only [hostOps0]; after_results_simp
  rfl
theorem pre_v6 (W : Valuation τ sig (Elt Ideal)) :
    (StableHlo.after (hostOps0 (F := Ideal)) W (Proc.devRef .tc main_v6) : S100000.Idx → EReal) = Cert.ReferenceIdeal.ReadP.val_main_v6 (F := Ideal) (W (Proc.devRef .tc main_arg3)) := by
  simp only [hostOps0]; after_results_simp
  rfl

/-- Second stretch (the outlined `where`): the factor where the mask holds, the zero elsewhere. -/
theorem where_v12 (W : Valuation τ sig (Elt Ideal)) :
    (StableHlo.after (hostOps0_1 (F := Ideal)) W (Proc.devRef .tc main_v12) : S100000.Idx → EReal)
      = select (W (Proc.devRef .tc main_v8)) (W (Proc.devRef .tc main_v11)) (broadcastInDim S100000 ![] Cert.KernelIdeal.Gen.bcast_S_S100000 (id (W (Proc.devRef .tc main_cst_4)))) := by
  simp only [hostOps0_1]; after_results_simp
  rfl
theorem where_keeps_v6 (W : Valuation τ sig (Elt Ideal)) :
    StableHlo.after (hostOps0_1 (F := Ideal)) W (Proc.devRef .tc main_v6) = W (Proc.devRef .tc main_v6) := by
  simp only [hostOps0_1]; after_results_simp

/-- Third stretch: the same for the in-degree. -/
theorem pre_v14 (W : Valuation τ sig (Elt Ideal)) :
    (StableHlo.after (hostOps0_2 (F := Ideal)) W (Proc.devRef .tc main_v14) : S100000.Idx → BitVec 1)
      = cmpf (F := Ideal) (s := S100000) (φ := .f32) .ogt (W (Proc.devRef .tc main_v6)) (Cert.ReferenceIdeal.ReadP.val_main_v13 (F := Ideal)) := by
  simp only [hostOps0_2]; after_results_simp
  rfl
theorem pre_v17 (W : Valuation τ sig (Elt Ideal)) :
    (StableHlo.after (hostOps0_2 (F := Ideal)) W (Proc.devRef .tc main_v17) : S100000.Idx → EReal)
      = Host.rsqrt (F := Ideal) (maximumf (F := Ideal) (s := S100000) (φ := .f32) (W (Proc.devRef .tc main_v6)) (Cert.ReferenceIdeal.ReadP.val_main_v15 (F := Ideal))) := by
  simp only [hostOps0_2]; after_results_simp
  rfl
theorem pre_cst_7 (W : Valuation τ sig (Elt Ideal)) :
    (StableHlo.after (hostOps0_2 (F := Ideal)) W (Proc.devRef .tc main_cst_7) : S_.Idx → EReal) = Cert.ReferenceIdeal.ReadP.val_main_cst_7 (F := Ideal) := by
  simp only [hostOps0_2]; after_results_simp
  rfl
theorem pre_keeps_v12 (W : Valuation τ sig (Elt Ideal)) :
    StableHlo.after (hostOps0_2 (F := Ideal)) W (Proc.devRef .tc main_v12) = W (Proc.devRef .tc main_v12) := by
  simp only [hostOps0_2]; after_results_simp

/-- Fourth stretch (the outlined `where` again). -/
theorem where_v18 (W : Valuation τ sig (Elt Ideal)) :
    (StableHlo.after (hostOps0_3 (F := Ideal)) W (Proc.devRef .tc main_v18) : S100000.Idx → EReal)
      = select (W (Proc.devRef .tc main_v14)) (W (Proc.devRef .tc main_v17)) (broadcastInDim S100000 ![] Cert.KernelIdeal.Gen.bcast_S_S100000 (id (W (Proc.devRef .tc main_cst_7)))) := by
  simp only [hostOps0_3]; after_results_simp
  rfl
theorem where_keeps_v12 (W : Valuation τ sig (Elt Ideal)) :
    StableHlo.after (hostOps0_3 (F := Ideal)) W (Proc.devRef .tc main_v12) = W (Proc.devRef .tc main_v12) := by
  simp only [hostOps0_3]; after_results_simp

/-! ## The boundaries -/

variable (m : (ℓ : Loc nD τ sig) → Buf (Elt Ideal) ℓ) (ρ : Dev nD → PrngReg) (c : Dev nD)

/-- The node features, the weights, the edges' sources and destinations, as launched. -/
abbrev argX : S100000x64.Idx → EReal := m ((c : Thread nD τ).loc main_arg0)
abbrev argW : S64x64.Idx → EReal := m ((c : Thread nD τ).loc main_arg1)
abbrev argSrc : S1000000.Idx → BitVec 32 := m ((c : Thread nD τ).loc main_arg2)
abbrev argDst : S1000000.Idx → BitVec 32 := m ((c : Thread nD τ).loc main_arg3)
/-- The node factors, as the reference computes them, of the kernel's arguments. -/
abbrev NO : S100000.Idx → EReal := Cert.ReferenceIdeal.Stages.no (argSrc m c)
abbrev NI : S100000.Idx → EReal := Cert.ReferenceIdeal.Stages.ni (argDst m c)

/-- The kernel's host prefix computes the out-degree factors by the reference's operations. -/
theorem W4_no : (W4 (F := Ideal) m ρ c (Proc.devRef .tc main_v12) : S100000.Idx → EReal) = NO m c := by
  refine (where_keeps_v12 (W3 m ρ c)).trans ((pre_keeps_v12 (W2 m ρ c)).trans ((where_v12 (W1 m ρ c)).trans ?_))
  show select (StableHlo.after hostOps0 (W0 m ρ c) (Proc.devRef .tc main_v8)) (StableHlo.after hostOps0 (W0 m ρ c) (Proc.devRef .tc main_v11))
      (broadcastInDim S100000 ![] Cert.KernelIdeal.Gen.bcast_S_S100000 (id (StableHlo.after hostOps0 (W0 m ρ c) (Proc.devRef .tc main_cst_4)))) = _
  rw [pre_v8 (W0 m ρ c), pre_v11 (W0 m ρ c), pre_cst_4 (W0 m ρ c)]
  rfl
/-- And the in-degree factors. -/
theorem W4_ni : (W4 (F := Ideal) m ρ c (Proc.devRef .tc main_v18) : S100000.Idx → EReal) = NI m c := by
  refine (where_v18 (W3 m ρ c)).trans ?_
  show select (StableHlo.after hostOps0_2 (W2 m ρ c) (Proc.devRef .tc main_v14)) (StableHlo.after hostOps0_2 (W2 m ρ c) (Proc.devRef .tc main_v17))
      (broadcastInDim S100000 ![] Cert.KernelIdeal.Gen.bcast_S_S100000 (id (StableHlo.after hostOps0_2 (W2 m ρ c) (Proc.devRef .tc main_cst_7)))) = _
  rw [pre_v14 (W2 m ρ c), pre_v17 (W2 m ρ c), pre_cst_7 (W2 m ρ c)]
  have h6 : (W2 (F := Ideal) m ρ c (Proc.devRef .tc main_v6) : S100000.Idx → EReal) = Cert.ReferenceIdeal.ReadP.val_main_v6 (F := Ideal) (argDst m c) :=
    (where_keeps_v6 (W1 m ρ c)).trans (pre_v6 (W0 m ρ c))
  rw [h6]
  rfl

/-! At the first launch's entry. -/
theorem W5_v19 : (W5 (F := Ideal) m ρ c (Proc.devRef .tc main_v19) : S100000x1.Idx → EReal) = Sgc.asCol (NO m c) :=
  (cols_v19 (W4 m ρ c)).trans (congrArg Sgc.asCol (W4_no m ρ c))
theorem W5_v20 : (W5 (F := Ideal) m ρ c (Proc.devRef .tc main_v20) : S100000x1.Idx → EReal) = Sgc.asCol (NI m c) :=
  (cols_v20 (W4 m ρ c)).trans (congrArg Sgc.asCol (W4_ni m ρ c))
theorem W5_v22 : (W5 (F := Ideal) m ρ c (Proc.devRef .tc main_v22) : S100000x1.Idx → EReal) = Sgc.asCol (fun r => NI m c r * NO m c r) := by
  refine (cols_v22 (W4 m ρ c)).trans ?_
  rw [W4_no m ρ c, W4_ni m ρ c]
  rfl
theorem W5_arg0 : W5 (F := Ideal) m ρ c (Proc.devRef .tc main_arg0) = m ((c : Thread nD τ).loc main_arg0) := by
  show StableHlo.after hostOps0_4 (StableHlo.after hostOps0_3 (StableHlo.after hostOps0_2 (StableHlo.after hostOps0_1 (StableHlo.after hostOps0 (W0 m ρ c))))) (Proc.devRef .tc main_arg0) = _
  simp only [hostOps0, hostOps0_1, hostOps0_2, hostOps0_3, hostOps0_4]
  after_results_simp <;> rfl
theorem W5_arg1 : W5 (F := Ideal) m ρ c (Proc.devRef .tc main_arg1) = m ((c : Thread nD τ).loc main_arg1) := by
  show StableHlo.after hostOps0_4 (StableHlo.after hostOps0_3 (StableHlo.after hostOps0_2 (StableHlo.after hostOps0_1 (StableHlo.after hostOps0 (W0 m ρ c))))) (Proc.devRef .tc main_arg1) = _
  simp only [hostOps0, hostOps0_1, hostOps0_2, hostOps0_3, hostOps0_4]
  after_results_simp <;> rfl
theorem W5_arg2 : W5 (F := Ideal) m ρ c (Proc.devRef .tc main_arg2) = m ((c : Thread nD τ).loc main_arg2) := by
  show StableHlo.after hostOps0_4 (StableHlo.after hostOps0_3 (StableHlo.after hostOps0_2 (StableHlo.after hostOps0_1 (StableHlo.after hostOps0 (W0 m ρ c))))) (Proc.devRef .tc main_arg2) = _
  simp only [hostOps0, hostOps0_1, hostOps0_2, hostOps0_3, hostOps0_4]
  after_results_simp <;> rfl
theorem W5_arg3 : W5 (F := Ideal) m ρ c (Proc.devRef .tc main_arg3) = m ((c : Thread nD τ).loc main_arg3) := by
  show StableHlo.after hostOps0_4 (StableHlo.after hostOps0_3 (StableHlo.after hostOps0_2 (StableHlo.after hostOps0_1 (StableHlo.after hostOps0 (W0 m ρ c))))) (Proc.devRef .tc main_arg3) = _
  simp only [hostOps0, hostOps0_1, hostOps0_2, hostOps0_3, hostOps0_4]
  after_results_simp <;> rfl

/-- After the first launch: the rows of x scaled by the out-degree factors. -/
theorem W6_v23 : (W6 (F := Ideal) m ρ c (Proc.devRef .tc main_v23) : S100000x64.Idx → EReal) = Sgc.scaleRows (argX m c) (NO m c) := by
  refine ((W6_arr m ρ c 2).trans (Scale0.whole (V5 m ρ) c)).trans ?_
  show Sgc.scaleByCol (W5 m ρ c (Proc.devRef .tc main_arg0)) (W5 m ρ c (Proc.devRef .tc main_v19)) = _
  rw [W5_arg0 m ρ c, W5_v19 m ρ c, Sgc.scaleByCol_asCol]

/-! What the first launch and the stretch after it carry through. -/
theorem W7_main_v22 : W7 (F := Ideal) m ρ c (Proc.devRef .tc main_v22) = W5 m ρ c (Proc.devRef .tc main_v22) :=
  (keep1_main_v22 (W6 m ρ c)).trans (W6_of_ne m ρ c main_v22 (by decide))
theorem W7_main_v20 : W7 (F := Ideal) m ρ c (Proc.devRef .tc main_v20) = W5 m ρ c (Proc.devRef .tc main_v20) :=
  (keep1_main_v20 (W6 m ρ c)).trans (W6_of_ne m ρ c main_v20 (by decide))
theorem W7_main_arg1 : W7 (F := Ideal) m ρ c (Proc.devRef .tc main_arg1) = W5 m ρ c (Proc.devRef .tc main_arg1) :=
  (keep1_main_arg1 (W6 m ρ c)).trans (W6_of_ne m ρ c main_arg1 (by decide))
theorem W7_main_arg2 : W7 (F := Ideal) m ρ c (Proc.devRef .tc main_arg2) = W5 m ρ c (Proc.devRef .tc main_arg2) :=
  (keep1_main_arg2 (W6 m ρ c)).trans (W6_of_ne m ρ c main_arg2 (by decide))
theorem W7_main_arg3 : W7 (F := Ideal) m ρ c (Proc.devRef .tc main_arg3) = W5 m ρ c (Proc.devRef .tc main_arg3) :=
  (keep1_main_arg3 (W6 m ρ c)).trans (W6_of_ne m ρ c main_arg3 (by decide))

/-- At the second launch's entry: one propagation step of the scaled rows. -/
theorem W7_v33 : (W7 (F := Ideal) m ρ c (Proc.devRef .tc main_v33) : S100000x64.Idx → EReal)
    = propagate (Sgc.scaleRows (argX m c) (NO m c)) (argSrc m c) (argDst m c) := by
  refine (step_v33 (W6 m ρ c)).trans ?_
  rw [W6_v23 m ρ c, W6_of_ne m ρ c main_arg2 (by decide), W6_of_ne m ρ c main_arg3 (by decide), W5_arg2 m ρ c, W5_arg3 m ρ c]

/-- After the second launch: those rows scaled by the product of the two factors. -/
theorem W8_v34 : (W8 (F := Ideal) m ρ c (Proc.devRef .tc main_v34) : S100000x64.Idx → EReal)
    = Sgc.scaleRows (propagate (Sgc.scaleRows (argX m c) (NO m c)) (argSrc m c) (argDst m c)) (fun r => NI m c r * NO m c r) := by
  refine ((W8_arr m ρ c 2).trans (Scale1.whole (V7 m ρ) c)).trans ?_
  show Sgc.scaleByCol (W7 m ρ c (Proc.devRef .tc main_v33)) (W7 m ρ c (Proc.devRef .tc main_v22)) = _
  rw [W7_v33 m ρ c, W7_main_v22 m ρ c, W5_v22 m ρ c, Sgc.scaleByCol_asCol]

/-! What the second launch and the stretch after it carry through. -/
theorem W9_main_v20 : W9 (F := Ideal) m ρ c (Proc.devRef .tc main_v20) = W5 m ρ c (Proc.devRef .tc main_v20) :=
  (keep2_main_v20 (W8 m ρ c)).trans ((W8_of_ne m ρ c main_v20 (by decide)).trans (W7_main_v20 m ρ c))
theorem W9_main_arg1 : W9 (F := Ideal) m ρ c (Proc.devRef .tc main_arg1) = W5 m ρ c (Proc.devRef .tc main_arg1) :=
  (keep2_main_arg1 (W8 m ρ c)).trans ((W8_of_ne m ρ c main_arg1 (by decide)).trans (W7_main_arg1 m ρ c))
theorem W9_main_arg2 : W9 (F := Ideal) m ρ c (Proc.devRef .tc main_arg2) = W5 m ρ c (Proc.devRef .tc main_arg2) :=
  (keep2_main_arg2 (W8 m ρ c)).trans ((W8_of_ne m ρ c main_arg2 (by decide)).trans (W7_main_arg2 m ρ c))
theorem W9_main_arg3 : W9 (F := Ideal) m ρ c (Proc.devRef .tc main_arg3) = W5 m ρ c (Proc.devRef .tc main_arg3) :=
  (keep2_main_arg3 (W8 m ρ c)).trans ((W8_of_ne m ρ c main_arg3 (by decide)).trans (W7_main_arg3 m ρ c))

/-- At the third launch's entry: one more propagation step. -/
theorem W9_v44 : (W9 (F := Ideal) m ρ c (Proc.devRef .tc main_v44) : S100000x64.Idx → EReal)
    = propagate (Sgc.scaleRows (propagate (Sgc.scaleRows (argX m c) (NO m c)) (argSrc m c) (argDst m c)) (fun r => NI m c r * NO m c r)) (argSrc m c) (argDst m c) := by
  refine (step_v44 (W8 m ρ c)).trans ?_
  rw [W8_v34 m ρ c, W8_of_ne m ρ c main_arg2 (by decide), W8_of_ne m ρ c main_arg3 (by decide), W7_main_arg2 m ρ c, W7_main_arg3 m ρ c, W5_arg2 m ρ c, W5_arg3 m ρ c]

/-- What the kernel computes, as a function of its arguments: two propagation steps between row scalings (the middle
    scaling by the product of the two node factors), then the product with the weights, cut at zero. -/
def value : S100000x64.Idx → EReal :=
  Sgc.projRelu (propagate (Sgc.scaleRows (propagate (Sgc.scaleRows (argX m c) (NO m c)) (argSrc m c) (argDst m c)) (fun r => NI m c r * NO m c r)) (argSrc m c) (argDst m c)) (NI m c) (argW m c)

/-- THE KERNEL'S RESULT is that function of its arguments. -/
theorem result_value : (W10 (F := Ideal) m ρ c (Proc.devRef .tc main_v45) : S100000x64.Idx → EReal) = value m c := by
  unfold value
  refine ((W10_arr m ρ c 3).trans (Proj.whole (V9 m ρ) c)).trans ?_
  show Sgc.projReluByCol (W9 m ρ c (Proc.devRef .tc main_v44)) (W9 m ρ c (Proc.devRef .tc main_v20)) (W9 m ρ c (Proc.devRef .tc main_arg1)) = _
  rw [W9_v44 m ρ c, W9_main_v20 m ρ c, W9_main_arg1 m ρ c, W5_v20 m ρ c, W5_arg1 m ρ c, Sgc.projReluByCol_asCol]

end Cert.KernelIdeal.Whole

end
-- ==== Proof.lean ====
/-
  Two hops of simplified graph convolution on 100000 nodes with 64 features: a tiled kernel against a plain reference.

  Both programs compute the node factors `no`, `ni` (inverse square roots of the out- and in-degrees, zero at isolated
  nodes) by the same host operations, and both end with  max ((rows scaled by ni) · W) 0.  In between the reference
  computes, with P one propagation step (gather the edges' source rows, add them into the destination rows),
        P (((P (x · no)) · ni) · no)
  and the kernel
        P ((P (x · no)) · (ni · no)),
  every product a scaling of the rows by a node vector. The two agree because the product of extended reals is
  associative — at infinite values too, so the finiteness of the inputs is never used. The kernel's three launches
  each tile the 100000 rows into 10 blocks of 10000 and are read as whole-array functions (RegionScale0, RegionScale1,
  RegionProj); the contents of its buffers between launches are followed through the host operations in KernelStages;
  the reference's stages are read at an index in RefStages. The propagation step is the same term in both programs and
  is never opened. At the extended reals the narrowing of the matrix unit's operands to bf16 is the identity and its
  accumulation from zero is the plain sum, which is the reference's product.

  The three frame claims are the generated frames (the reference's is its generated run with the result dropped);
  the idealization rewrote nothing, so that claim is `True`.
-/
import proofs.«107755_j35914516529298_1_alg».proof.Defs
import proofs.«107755_j35914516529298_1_alg».proof.Proof.Gen.Kernel
import proofs.«107755_j35914516529298_1_alg».proof.Proof.Gen.Kernel.Skeleton
import proofs.«107755_j35914516529298_1_alg».proof.Proof.Gen.Kernel.Launch
import proofs.«107755_j35914516529298_1_alg».proof.Proof.Gen.Kernel.Points
import proofs.«107755_j35914516529298_1_alg».proof.Proof.Gen.Kernel.Frame
import proofs.«107755_j35914516529298_1_alg».proof.Proof.Gen.KernelIdeal
import proofs.«107755_j35914516529298_1_alg».proof.Proof.Gen.KernelIdeal.Skeleton
import proofs.«107755_j35914516529298_1_alg».proof.Proof.Gen.KernelIdeal.Launch
import proofs.«107755_j35914516529298_1_alg».proof.Proof.Gen.KernelIdeal.Points
import proofs.«107755_j35914516529298_1_alg».proof.Proof.Gen.KernelIdeal.Frame
import proofs.«107755_j35914516529298_1_alg».proof.Proof.Gen.ReferenceIdeal
import proofs.«107755_j35914516529298_1_alg».proof.Proof.RefRun
import proofs.«107755_j35914516529298_1_alg».proof.Proof.RefRead
import proofs.«107755_j35914516529298_1_alg».proof.Proof.RefStages
import proofs.«107755_j35914516529298_1_alg».proof.Proof.KernelRun
import proofs.«107755_j35914516529298_1_alg».proof.Proof.KernelStages
import proofs.«107755_j35914516529298_1_alg».proof.Proof.Gen.Pre_finite_inputs
import Idealize.ShloMosaic.Adequacy
import Idealize.ShloMosaic.Init

noncomputable section

namespace Cert.Proof

open Idealize.ShloMosaic Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference's run, its result dropped. -/
theorem frame_referenceIdeal : Cert.frame_ReferenceIdeal := fun m ρ _ =>
  (θ_run Cert.ReferenceIdeal.defs _ _).mono (fun _ h c => (h c).2) (Cert.ReferenceIdeal.ValueP.run (F := Ideal) m ρ)

/-- From memories that agree on the four arguments both programs end with the same array: the kernel's is
    `Cert.KernelIdeal.Whole.value` of its arguments (KernelStages), and the reference's stages fold to the same term
    (RefStages `result_eq`: the middle two row scalings joined by associativity). -/
theorem algebraic : Cert.algebraic_KernelIdeal_ReferenceIdeal := by
  intro m ρ m' ρ' _ hagree
  refine ⟨fun c => Cert.KernelIdeal.Whole.value m c, ?_, ?_⟩
  · exact (θ_run Cert.KernelIdeal.defs _ _).mono
      (fun _ h c => ⟨(h c).1.trans (Cert.KernelIdeal.Whole.result_value m ρ c), (h c).2⟩)
      (Cert.KernelIdeal.Whole.run_result (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v52_eq, (hagree c).1, (hagree c).2.1, (hagree c).2.2.1, (hagree c).2.2.2]
    exact Cert.ReferenceIdeal.Stages.result_eq _ _ _ _

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
